-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S8192x128 .f32) (main_arg1 : FVec F S8192x8192 .f32) (main_arg2 : FVec F S128x32 .f32) (main_arg3 : FVec F S32 .f32) (main_arg4 : FVec F S32x32 .f32) (main_arg5 : FVec F S32 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S1x32 : Shape := ⟨2, ![1, 32]⟩
abbrev S8192x32 : Shape := ⟨2, ![8192, 32]⟩
abbrev S256x8192 : Shape := ⟨2, ![256, 8192]⟩
abbrev S256x32 : Shape := ⟨2, ![256, 32]⟩
abbrev S_ : Shape := ⟨0, ![]⟩
abbrev S1x1x32 : Shape := ⟨3, ![1, 1, 32]⟩

abbrev nBuf : Space → Nat
  | .hbm => 17
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x32, .f32⟩
  | .hbm, ⟨7, _⟩ => ⟨S1x32, .f32⟩
  | .hbm, ⟨8, _⟩ => ⟨S8192x32, .f32⟩
  | .hbm, ⟨9, _⟩ => ⟨S8192x32, .bf16⟩
  | .hbm, ⟨10, _⟩ => ⟨S8192x32, .f32⟩
  | .hbm, ⟨11, _⟩ => ⟨S8192x32, .f32⟩
  | .hbm, ⟨12, _⟩ => ⟨S8192x32, .bf16⟩
  | .hbm, ⟨13, _⟩ => ⟨S8192x32, .f32⟩
  | .hbm, ⟨14, _⟩ => ⟨S_, .f32⟩
  | .hbm, ⟨15, _⟩ => ⟨S32, .f32⟩
  | .hbm, ⟨16, _⟩ => ⟨S1x1x32, .f32⟩
  | .local _ .vmem, ⟨0, _⟩ => ⟨S256x8192, .f32⟩
  | .local _ .vmem, ⟨1, _⟩ => ⟨S256x8192, .f32⟩
  | .local _ .vmem, ⟨2, _⟩ => ⟨S8192x32, .bf16⟩
  | .local _ .vmem, ⟨3, _⟩ => ⟨S1x32, .f32⟩
  | .local _ .vmem, ⟨4, _⟩ => ⟨S256x32, .f32⟩
  | .local _ .vmem, ⟨5, _⟩ => ⟨S256x32, .f32⟩
  | .local _ .vmem, ⟨6, _⟩ => ⟨S256x8192, .f32⟩
  | .local _ .vmem, ⟨7, _⟩ => ⟨S256x8192, .f32⟩
  | .local _ .vmem, ⟨8, _⟩ => ⟨S8192x32, .bf16⟩
  | .local _ .vmem, ⟨9, _⟩ => ⟨S1x32, .f32⟩
  | .local _ .vmem, ⟨10, _⟩ => ⟨S256x32, .f32⟩
  | .local _ .vmem, ⟨11, _⟩ => ⟨S256x32, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S32_S1x32 : S32.ShapeCasts S1x32
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  reducesTo_S8192x32_S32_d0 : S8192x32.ReducesTo [0] S32
  h_S_ : 0 < S_.numel
  bcast_S32_S1x1x32_2 : S32.BroadcastsInDim S1x1x32 (![2] : Fin 1 → Fin S1x1x32.rank)
  dot_S8192x128_S128x32_S8192x32_1_0_0_1_n_n_wf : DotDims.WF S8192x128 S128x32 S8192x32 [1] [0] [0] [1] [] []
  dot_S256x8192_S8192x32_S256x32_1_0_0_1_n_n_wf : DotDims.WF S256x8192 S8192x32 S256x32 [1] [0] [0] [1] [] []
  dot_S8192x32_S32x32_S8192x32_1_0_0_1_n_n_wf : DotDims.WF S8192x32 S32x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .bf16 = 32 ∨ (Rect.block (s := S8192x32) S8192x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S8192x32.size a
  hwx0_3 : ∀ i : grid0.Coords, EltTy.bits .f32 = 32 ∨ (Rect.block (s := S8192x32) S256x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S8192x32.size a
  hwx1_1 : ∀ i : grid1.Coords, EltTy.bits .bf16 = 32 ∨ (Rect.block (s := S8192x32) S8192x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x32.size a ≤ S8192x32.size a
  hwx1_3 : ∀ i : grid1.Coords, EltTy.bits .f32 = 32 ∨ (Rect.block (s := S8192x32) S256x32.size (cc1_transform_3 i) (hinb1_3 i)).WholeWords (EltTy.packing .f32)

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S8192x32 : Shape := ⟨2, ![8192, 32]⟩
abbrev S1x32 : Shape := ⟨2, ![1, 32]⟩
abbrev S_ : Shape := ⟨0, ![]⟩
abbrev S1x1x32 : Shape := ⟨3, ![1, 1, 32]⟩

abbrev nBuf : Space → Nat
  | .hbm => 19
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S8192x32, .f32⟩
  | .hbm, ⟨7, _⟩ => ⟨S8192x32, .f32⟩
  | .hbm, ⟨8, _⟩ => ⟨S1x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S1x32, .f32⟩
  | .hbm, ⟨14, _⟩ => ⟨S8192x32, .f32⟩
  | .hbm, ⟨15, _⟩ => ⟨S8192x32, .f32⟩
  | .hbm, ⟨16, _⟩ => ⟨S_, .f32⟩
  | .hbm, ⟨17, _⟩ => ⟨S32, .f32⟩
  | .hbm, ⟨18, _⟩ => ⟨S1x1x32, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  reducesTo_S8192x32_S32_d0 : S8192x32.ReducesTo [0] S32
  h_S_ : 0 < S_.numel
  bcast_S32_S1x1x32_2 : S32.BroadcastsInDim S1x1x32 (![2] : Fin 1 → Fin S1x1x32.rank)
  dot_S8192x128_S128x32_S8192x32_1_0_0_1_n_n_wf : DotDims.WF S8192x128 S128x32 S8192x32 [1] [0] [0] [1] [] []
  dot_S8192x8192_S8192x32_S8192x32_1_0_0_1_n_n_wf : DotDims.WF S8192x8192 S8192x32 S8192x32 [1] [0] [0] [1] [] []
  dot_S8192x32_S32x32_S8192x32_1_0_0_1_n_n_wf : DotDims.WF S8192x32 S32x32 S8192x32 [1] [0] [0] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf

class Facts : Prop extends Facts₀ where

variable [Facts]
-- ==== Proof.GcnSpec.lean ====
/-
  A graph-convolution layer and the max-pool readout, over the extended reals, as plain functions of arrays.

  A layer takes an adjacency matrix `A` (8192 × 8192), a projected feature matrix `R` (8192 × 32) and a bias row
  `b` (32 entries) to the matrix whose entry (r, q) is `(∑ k, A (r, k) · R (k, q)) + b q`: the product `A · R` with
  the bias added to every row. The readout takes the column-wise maximum of an 8192 × 32 matrix from −∞ and lays
  it out as a [1, 1, 32] array. The whole network is two layers, with a dense projection before each, then the readout.
-/
import Idealize.ShloMosaic.PureOps.Ideal
import Idealize.ShloMosaic.PureOps
import Idealize.ShloMosaic.Lib.ValueIdx

noncomputable section

namespace Gcn

open Idealize.ShloMosaic Idealize.ShloMosaic.ValueIdx

/-- The adjacency matrix's shape. -/
abbrev SNN : Shape := ⟨2, ![8192, 8192]⟩
/-- A layer's operand and result shape: one row of 32 features per node. -/
abbrev SNF : Shape := ⟨2, ![8192, 32]⟩

/-- The row coordinate of an entry of a node-by-feature matrix, as a number below 8192. -/
abbrev row (i : SNF.Idx) : Fin 8192 := ⟨(i 0).val, (i 0).isLt⟩
/-- Its column coordinate, as a number below 32. -/
abbrev col (i : SNF.Idx) : Fin 32 := ⟨(i 1).val, (i 1).isLt⟩

/-- One layer: entry (r, q) is the sum over the nodes `k` of `A (r, k) · R (k, q)`, plus the bias `b q`. -/
def layer (A : SNN.Idx → EReal) (R : SNF.Idx → EReal) (b : Fin 32 → EReal) : SNF.Idx → EReal :=
  fun i => (∑ k : Fin 8192, A (ix2 (row i) k) * R (ix2 k (col i))) + b (col i)

theorem layer_apply (A : SNN.Idx → EReal) (R : SNF.Idx → EReal) (b : Fin 32 → EReal) (i : SNF.Idx) :
    layer A R b i = (∑ k : Fin 8192, A (ix2 (row i) k) * R (ix2 k (col i))) + b (col i) := rfl

/-- The readout: the maximum over the nodes of each feature column, started from −∞ (the word `0xFF800000`),
    laid out as a [1, 1, 32] array. The three side conditions are facts about the literal shapes. -/
def readout (hb : (⟨1, ![32]⟩ : Shape).BroadcastsInDim ⟨3, ![1, 1, 32]⟩ (![2] : Fin 1 → Fin (⟨3, ![1, 1, 32]⟩ : Shape).rank))
    (hr : SNF.ReducesTo [0] ⟨1, ![32]⟩) (h0 : 0 < (⟨0, ![]⟩ : Shape).numel) (v : FVec Ideal SNF .f32) :
    FVec Ideal ⟨3, ![1, 1, 32]⟩ .f32 :=
  broadcastInDim ⟨3, ![1, 1, 32]⟩ ![2] hb
    (Host.reduce (FloatOps.maximumf (F := Ideal) (φ := .f32)) v (constant (F := Ideal) ⟨0, ![]⟩ .f32 0xFF800000#32) hr h0)

end Gcn

end
-- ==== Proof.RefLayers.lean ====
/-
  The reference program read as two graph-convolution layers and a readout.

  The reference computes `h₁ = adj · (x · W₁) + b₁`, `h₂ = adj · (h₁ · W₂) + b₂` and the column-wise maximum of `h₂`.
  Each `adj · R + b` (a host matrix product, the bias broadcast to every row, an addition) is, entry by entry,
  `Gcn.layer adj R b`: the product's entry (r, q) is `∑ k, adj (r, k) · R (k, q)`, and the doubly broadcast bias read
  at (r, q) is `b q`.
-/
import proofs.«131351_j78503412236483_2_alg».proof.Proof.Gen.ReferenceIdeal.Read
import proofs.«131351_j78503412236483_2_alg».proof.Proof.GcnSpec

noncomputable section

namespace Cert.ReferenceIdeal.RefValue

open Cert.ReferenceIdeal Cert.ReferenceIdeal.Gen Cert.ReferenceIdeal.Read Idealize.ShloMosaic Idealize.ShloMosaic.ValueIdx

/-- The first layer: `adj · (x · W₁) + b₁` is `Gcn.layer` of the adjacency matrix, the projection `x · W₁` and the bias. -/
theorem layer1_eq (x0 : (⟨S8192x128, .f32⟩ : BufTy).Contents (Elt Ideal)) (x1 : (⟨S8192x8192, .f32⟩ : BufTy).Contents (Elt Ideal))
    (x2 : (⟨S128x32, .f32⟩ : BufTy).Contents (Elt Ideal)) (x3 : (⟨S32, .f32⟩ : BufTy).Contents (Elt Ideal)) :
    val_main_v4 (F := Ideal) x0 x1 x2 x3 = Gcn.layer x1 (val_main_v0 (F := Ideal) x0 x2) (fun q => x3 (ix1 q)) := by
  funext i
  rw [val_main_v4_apply, val_main_v1_apply, val_main_v3_apply, val_main_v2_apply, Gcn.layer_apply]
  have e1 : ∀ k, lidx_main_v1 i k = ix2 (Gcn.row i) k := fun k => funext fun a => by
    match a with | ⟨0, _⟩ => rfl | ⟨1, _⟩ => rfl
  have e2 : ∀ k, ridx_main_v1 i k = ix2 k (Gcn.col i) := fun k => funext fun a => by
    match a with | ⟨0, _⟩ => rfl | ⟨1, _⟩ => rfl
  have e3 : idx_main_v2 (idx_main_v3 i) = ix1 (Gcn.col i) := funext fun a => by
    match a with | ⟨0, _⟩ => rfl
  simp only [e1, e2, e3]
  rfl

/-- The second layer: `adj · (h₁ · W₂) + b₂` likewise, over the projection `h₁ · W₂`. -/
theorem layer2_eq (x0 : (⟨S8192x128, .f32⟩ : BufTy).Contents (Elt Ideal)) (x1 : (⟨S8192x8192, .f32⟩ : BufTy).Contents (Elt Ideal))
    (x2 : (⟨S128x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) :
    val_main_v9 (F := Ideal) x0 x1 x2 x3 x4 x5
      = Gcn.layer x1 (val_main_v5 (F := Ideal) x0 x1 x2 x3 x4) (fun q => x5 (ix1 q)) := by
  funext i
  rw [val_main_v9_apply, val_main_v6_apply, val_main_v8_apply, val_main_v7_apply, Gcn.layer_apply]
  have e1 : ∀ k, lidx_main_v6 i k = ix2 (Gcn.row i) k := fun k => funext fun a => by
    match a with | ⟨0, _⟩ => rfl | ⟨1, _⟩ => rfl
  have e2 : ∀ k, ridx_main_v6 i k = ix2 k (Gcn.col i) := fun k => funext fun a => by
    match a with | ⟨0, _⟩ => rfl | ⟨1, _⟩ => rfl
  have e3 : idx_main_v7 (idx_main_v8 i) = ix1 (Gcn.col i) := funext fun a => by
    match a with | ⟨0, _⟩ => rfl
  simp only [e1, e2, e3]
  rfl

/-- The reference's result: the readout of the second layer over the first. The two dense projections stay as the
    host's own matrix products; nothing about them is needed. -/
theorem result_eq (x0 : (⟨S8192x128, .f32⟩ : BufTy).Contents (Elt Ideal)) (x1 : (⟨S8192x8192, .f32⟩ : BufTy).Contents (Elt Ideal))
    (x2 : (⟨S128x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) :
    val_main_v11 (F := Ideal) x0 x1 x2 x3 x4 x5
      = Gcn.readout Gen.bcast_S32_S1x1x32_2 Gen.reducesTo_S8192x32_S32_d0 Gen.h_S_
          (Gcn.layer x1
            (Host.dotGeneral (F := Ideal) (φ₁ := .f32) (φ₂ := .f32) dot_S8192x32_S32x32_S8192x32_1_0_0_1_n_n none
              (Gcn.layer x1 (Host.dotGeneral (F := Ideal) (φ₁ := .f32) (φ₂ := .f32) dot_S8192x128_S128x32_S8192x32_1_0_0_1_n_n none x0 x2) (fun q => x3 (ix1 q))) x4)
            (fun q => x5 (ix1 q))) := by
  unfold val_main_v11 val_main_v10
  rw [layer2_eq]
  unfold val_main_v5
  rw [layer1_eq]
  unfold val_main_v0 val_main_cst Gcn.readout
  rfl

end Cert.ReferenceIdeal.RefValue

end
-- ==== Proof.KernelRun.lean ====
/-
  The kernel program's run with its result kept.

  The program is five segments: host operations, the first launch, host operations, the second launch, host
  operations. Every weakly fair execution goes through them in order, and the buffers' contents at each boundary
  are a fold from the launch memory: a host stretch applies its operations, a launch replaces its output array by
  what its write-backs leave. The run therefore ends with EVERY unscoped buffer at the last boundary's contents; read
  at the result buffer this names the result, and read at the argument buffers it gives them back unchanged.
-/
import proofs.«131351_j78503412236483_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, without a fault, with the result buffer at the last boundary's contents
    and the six argument arrays as launched. -/
theorem run_result : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.KernelBody.lean ====
/-
  What one grid step of the kernel stores, read at an entry.

  A step loads a 256-row block `a` of the adjacency matrix, the whole projected feature matrix `r` (8192 × 32) and the
  bias row `b` (1 × 32), and stores `a · r + b` (the matrix product into a zero accumulator, the bias broadcast down the
  256 rows). On the extended reals the change of float format before the product is the identity, so the stored
  block's entry (p, q) is `(∑ k, a (p, k) · r (k, q)) + b (0, q)`. Both launches of the kernel run the same body.
-/
import proofs.«131351_j78503412236483_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- The block product's dimension record: rows of the block against columns of the feature matrix, contracted over
    the 8192 nodes. -/
abbrev D := dot_S256x8192_S8192x32_S256x32_1_0_0_1_n_n

theorem lhs_row (i : S256x32.Idx) (u : D.contr.Idx) : (D.lhsIdx i u 0).val = (i 0).val := by
  unfold DotDims.lhsIdx
  rw [dif_neg (show ¬(0 : Fin S256x8192.rank) ∈ D.lhsBatch by decide), dif_pos (show (0 : Fin S256x8192.rank) ∈ D.lhsNonContracting by decide)]
  rfl
theorem lhs_contr (i : S256x32.Idx) (u : D.contr.Idx) : (D.lhsIdx i u 1).val = (u ⟨0, by decide⟩).val :=
  D.lhsIdx_val_of_single rfl i u
theorem rhs_contr (i : S256x32.Idx) (u : D.contr.Idx) : (D.rhsIdx i u 0).val = (u ⟨0, by decide⟩).val :=
  D.rhsIdx_val_of_single rfl i u
theorem rhs_col (i : S256x32.Idx) (u : D.contr.Idx) : (D.rhsIdx i u 1).val = (i 1).val := by
  unfold DotDims.rhsIdx
  rw [dif_neg (show ¬(1 : Fin S8192x32.rank) ∈ D.rhsBatch by decide), dif_pos (show (1 : Fin S8192x32.rank) ∈ D.rhsNonContracting by decide)]
  rfl

/-- The block product into the zero accumulator, at entry (p, q): the sum over the nodes of the products. -/
theorem matmul_entry (a : FVec Ideal S256x8192 .bf16) (r : FVec Ideal S8192x32 .bf16) (p : Fin 256) (q : Fin 32) :
    matmul D none a r (constant S256x32 .f32 0x00000000#32) (ix2 p q) = ∑ k : Fin 8192, a (ix2 p k) * r (ix2 k q) := by
  simp only [matmul]
  rw [Ideal.matmul_constant_zero_apply, ← Equiv.sum_comp (contrEquiv1 D 8192 rfl rfl).symm]
  refine Finset.sum_congr rfl fun k _ => ?_
  have hk := contrEquiv1_symm_val D 8192 rfl rfl k
  have el : D.lhsIdx (ix2 p q) ((contrEquiv1 D 8192 rfl rfl).symm k) = ix2 p k := funext fun x => Fin.ext (by
    match x with
    | ⟨0, _⟩ => exact lhs_row _ _
    | ⟨1, _⟩ => exact (lhs_contr _ _).trans hk)
  have er : D.rhsIdx (ix2 p q) ((contrEquiv1 D 8192 rfl rfl).symm k) = ix2 k q := funext fun x => Fin.ext (by
    match x with
    | ⟨0, _⟩ => exact (rhs_contr _ _).trans hk
    | ⟨1, _⟩ => exact rhs_col _ _)
  rw [el, er]

/-- The bias row broadcast down the block's rows, at entry (p, q): the row's entry q. -/
theorem bias_entry (b : FVec Ideal S1x32 .f32) (p : Fin 256) (q : Fin 32) :
    broadcastTo S256x32 b broadcasts_S1x32_S256x32 (ix2 p q) = b (ix2 0 q) :=
  broadcastTo_apply b broadcasts_S1x32_S256x32 (ix2 p q) (ix2 0 q) fun x => by
    match x with
    | ⟨0, _⟩ => show (0 : Nat) = if (1 : Nat) = 1 then 0 else _; rw [if_pos rfl]
    | ⟨1, _⟩ => show q.val = if (32 : Nat) = 1 then 0 else q.val; rw [if_neg (by decide)]

/-- The first launch's stored block at entry (p, q). -/
theorem pay0_entry (a : FVec Ideal S256x8192 .f32) (r : FVec Ideal S8192x32 .bf16) (b : FVec Ideal S1x32 .f32) (p : Fin 256) (q : Fin 32) :
    k0_pay1 (F := Ideal) a r b (ix2 p q) = (∑ k : Fin 8192, a (ix2 p k) * r (ix2 k q)) + b (ix2 0 q) := by
  unfold k0_pay1
  show matmul D none (truncf .bf16 a bitsLt_bf16_f32) (shapeCast S8192x32 r shapeCasts_S8192x32_S8192x32) (constant S256x32 .f32 0x00000000#32) (ix2 p q)
      + broadcastTo S256x32 (shapeCast S1x32 b shapeCasts_S1x32_S1x32) broadcasts_S1x32_S256x32 (ix2 p q) = _
  rw [shapeCast_self, shapeCast_self, matmul_entry, bias_entry]
  rfl

/-- The second launch runs the same body. -/
theorem pay1_eq_pay0 (a : FVec Ideal S256x8192 .f32) (r : FVec Ideal S8192x32 .bf16) (b : FVec Ideal S1x32 .f32) :
    k1_pay1 (F := Ideal) a r b = k0_pay1 (F := Ideal) a r b := rfl

theorem pay1_entry (a : FVec Ideal S256x8192 .f32) (r : FVec Ideal S8192x32 .bf16) (b : FVec Ideal S1x32 .f32) (p : Fin 256) (q : Fin 32) :
    k1_pay1 (F := Ideal) a r b (ix2 p q) = (∑ k : Fin 8192, a (ix2 p k) * r (ix2 k q)) + b (ix2 0 q) := by
  rw [pay1_eq_pay0]; exact pay0_entry a r b p q

end Cert.KernelIdeal.Body

end
-- ==== Proof.Region0.lean ====
/-
  The first launch's output array, as one function of the arrays the launch finds.

  The launch walks 32 grid steps. Step `t` reads rows `256 t … 256 t + 255` of the adjacency matrix, the whole projected
  feature matrix and the bias row, and writes rows `256 t … 256 t + 255` of the output. What it writes is those rows of
  `Gcn.layer adj feat bias`: entry (p, q) of the stored block is `(∑ k, adj (256 t + p, k) · feat (k, q)) + bias q`. The 32
  row blocks tile the 8192 rows (row `r` is in block `r / 256`), so the array ends holding the layer everywhere.
-/
import proofs.«131351_j78503412236483_2_alg».proof.Proof.Gen.KernelIdeal.Frame
import proofs.«131351_j78503412236483_2_alg».proof.Proof.KernelBody
import proofs.«131351_j78503412236483_2_alg».proof.Proof.GcnSpec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the adjacency and output windows move down one row block per step; the
    feature and bias windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The adjacency block at step `t` is rows `256 t …` of the adjacency matrix. -/
theorem adj_block (c : Dev nD) (t : Fin cfg0.N) (x : S256x8192.Idx) (k : S8192x8192.Idx)
    (h0 : (k 0).val = t.val * 256 + (x 0).val) (h1 : (k 1).val = (x 1).val) :
    (iblk0 V c 0 t : Vec Ideal S256x8192 .f32) x = (V c main_arg1 : S8192x8192.Idx → EReal) k := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 256 + 1 * (x 0).val = (k 0).val; rw [e0, h0]; omega
  | ⟨1, _⟩ => show win0_0.index t 1 * 8192 + 1 * (x 1).val = (k 1).val; rw [e1, h1]; omega

/-- The feature block at every step is the whole projected feature matrix. -/
theorem feat_block (c : Dev nD) (t : Fin cfg0.N) (x : S8192x32.Idx) :
    (iblk0 V c 1 t : Vec Ideal S8192x32 .bf16) x = (V c main_v3 : S8192x32.Idx → EReal) x := by
  obtain ⟨-, -, e2, e3, -⟩ := idx_facts t
  unfold iblk0
  rw [View.read_apply]
  show V c main_v3 _ = V c main_v3 _
  congr 1
  funext a
  apply Fin.ext
  match a with
  | ⟨0, _⟩ => show win0_1.index t 0 * 8192 + 1 * (x 0).val = (x 0).val; rw [e2]; omega
  | ⟨1, _⟩ => show win0_1.index t 1 * 32 + 1 * (x 1).val = (x 1).val; rw [e3]; omega

/-- The bias block at every step is the whole bias row. -/
theorem bias_block (c : Dev nD) (t : Fin cfg0.N) (x : S1x32.Idx) :
    (iblk0 V c 2 t : Vec Ideal S1x32 .f32) x = (V c main_v0 : S1x32.Idx → EReal) x := by
  obtain ⟨-, -, -, -, e4, e5, -⟩ := idx_facts t
  unfold iblk0
  rw [View.read_apply]
  show V c main_v0 _ = V c main_v0 _
  congr 1
  funext a
  apply Fin.ext
  match a with
  | ⟨0, _⟩ => show win0_2.index t 0 * 1 + 1 * (x 0).val = (x 0).val; rw [e4]; omega
  | ⟨1, _⟩ => show win0_2.index t 1 * 32 + 1 * (x 1).val = (x 1).val; rw [e5]; omega

/-- One step's stored block, over plain arrays: if the loaded adjacency block is rows `256 tv …` of `A`, the loaded
    feature and bias blocks are `R` and `b`, and the block entry `j` sits at the array entry `i` (row `256 tv + j₀`, the same
    column), then the stored value at `j` is the layer at `i`. -/
theorem step_entry (A : S8192x8192.Idx → EReal) (R : S8192x32.Idx → EReal) (b : S1x32.Idx → EReal) (tv : Nat)
    (a : FVec Ideal S256x8192 .f32) (r : FVec Ideal S8192x32 .bf16) (bb : FVec Ideal S1x32 .f32)
    (ha : ∀ (x : S256x8192.Idx) (k : S8192x8192.Idx), (k 0).val = tv * 256 + (x 0).val → (k 1).val = (x 1).val → a x = A k)
    (hr : ∀ x : S8192x32.Idx, r x = R x) (hb : ∀ x : S1x32.Idx, bb x = b x)
    (j : S256x32.Idx) (i : S8192x32.Idx) (hi0 : (i 0).val = tv * 256 + (j 0).val) (hi1 : (i 1).val = (j 1).val) :
    k0_pay1 (F := Ideal) a r bb j = Gcn.layer A R (fun q => b (ix2 0 q)) i := by
  obtain ⟨p, q, rfl⟩ : ∃ (p : Fin 256) (q : Fin 32), j = ix2 p q := ⟨j 0, j 1, eq_ix2 j⟩
  have hq : Gcn.col i = q := Fin.ext hi1
  refine (Body.pay0_entry a r bb p q).trans ?_
  rw [Gcn.layer_apply, hq, hb]
  refine congrArg (· + b (ix2 0 q)) (Finset.sum_congr rfl fun k _ => ?_)
  rw [ha (ix2 p k) (ix2 (Gcn.row i) k) hi0 rfl, hr]

/-- WHAT STEP `t` WRITES BACK is block `t` of the layer of the arrays the launch finds. -/
theorem flushed_eq (c : Dev nD) (t : Fin cfg0.N) :
    (dat0 V c).flushed 3 t = ((cfg0.win 3).blk t).view.read (Elt Ideal)
      (Gcn.layer (V c main_arg1) (V c main_v3) (fun q => (V c main_v0 : S1x32.Idx → EReal) (ix2 0 q))) := by
  show (cfg0.win 3).cut (grid0.coords t) ((dat0 V c).after 3 t) = _
  rw [after0_3]
  unfold out0_3
  rw [View.canon_unit_zero hz]
  simp only [View.ld_unit_zero (S := S256x8192) hz, View.ld_unit_zero (S := S8192x32) hz, View.ld_unit_zero (S := S1x32) hz]
  obtain ⟨-, -, -, -, -, -, e6, e7⟩ := idx_facts t
  funext j
  exact step_entry (V c main_arg1) (V c main_v3) (V c main_v0) t.val (iblk0 V c 0 t) (iblk0 V c 1 t) (iblk0 V c 2 t)
    (fun x k h0 h1 => adj_block V c t x k h0 h1) (fun x => feat_block V c t x) (fun x => bias_block V c t x)
    j (((cfg0.win 3).blk t).view.emb j)
    (by show win0_3.index t 0 * 256 + 1 * (j 0).val = _; rw [e6]; omega)
    (by show win0_3.index t 1 * 32 + 1 * (j 1).val = _; rw [e7]; omega)

/-- An entry of the output array is in step `t`'s block iff each coordinate is in the block's range on its axis. -/
theorem mem_blk (t : Fin cfg0.N) (i : S8192x32.Idx) :
    i ∈ ((cfg0.win 3).blk t).view.set ↔ ∀ a : Fin 2, win0_3.index t a * S256x32.size a ≤ (i a).val ∧ (i a).val < win0_3.index t a * S256x32.size a + S256x32.size a := by
  show i ∈ ((View.whole main_v4).slice (win0_3.rect t)).set ↔ _
  rw [View.set_slice_whole, Rect.mem_set_unit]
  exact Iff.rfl

/-- Every entry is written back by some step: row `r` by step `r / 256`. -/
theorem cover (i : S8192x32.Idx) : ∃ t : Fin cfg0.N, (cfg0.win 3).flush t = true ∧ i ∈ ((cfg0.win 3).blk t).view.set := by
  have hN : cfg0.N = 32 := N_0
  have h0 : (i 0).val < 8192 := (i 0).isLt
  have h1 : (i 1).val < 32 := (i 1).isLt
  obtain ⟨t, ht⟩ : ∃ t : Fin cfg0.N, t.val = (i 0).val / 256 := ⟨⟨(i 0).val / 256, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t 0 * 256 ≤ (i 0).val ∧ (i 0).val < win0_3.index t 0 * 256 + 256; rw [e6, ht]; omega
  | ⟨1, _⟩ => show win0_3.index t 1 * 32 ≤ (i 1).val ∧ (i 1).val < win0_3.index t 1 * 32 + 32; rw [e7]; omega

/-- THE OUTPUT ARRAY after the launch: the layer of the adjacency matrix, the projected features and the bias row as
    the launch found them. -/
theorem final (c : Dev nD) : (dat0 V c).arrAt 3 cfg0.N
    = Gcn.layer (V c main_arg1) (V c main_v3) (fun q => (V c main_v0 : S1x32.Idx → EReal) (ix2 0 q)) :=
  (dat0 V c).arrAt_eq_of_cover 3 _ (fun t _ => flushed_eq V c t) cover

end Cert.KernelIdeal.Region0

end
-- ==== Proof.Region1.lean ====
/-
  The second launch's output array, as one function of the arrays the launch finds.

  The launch walks 32 grid steps. Step `t` reads rows `256 t … 256 t + 255` of the adjacency matrix, the whole projected
  feature matrix and the bias row, and writes rows `256 t … 256 t + 255` of the output. What it writes is those rows of
  `Gcn.layer adj feat bias`: entry (p, q) of the stored block is `(∑ k, adj (256 t + p, k) · feat (k, q)) + bias q`. The 32
  row blocks tile the 8192 rows (row `r` is in block `r / 256`), so the array ends holding the layer everywhere.
  This launch runs the same body over the same windows as the first one; only the arrays differ: its feature matrix is
  the second projection `h₁ · W₂` and its bias row is `b₂`.
-/
import proofs.«131351_j78503412236483_2_alg».proof.Proof.Gen.KernelIdeal.Frame
import proofs.«131351_j78503412236483_2_alg».proof.Proof.KernelBody
import proofs.«131351_j78503412236483_2_alg».proof.Proof.GcnSpec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the adjacency and output windows move down one row block per step; the
    feature and bias windows stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The adjacency block at step `t` is rows `256 t …` of the adjacency matrix. -/
theorem adj_block (c : Dev nD) (t : Fin cfg1.N) (x : S256x8192.Idx) (k : S8192x8192.Idx)
    (h0 : (k 0).val = t.val * 256 + (x 0).val) (h1 : (k 1).val = (x 1).val) :
    (iblk1 V c 0 t : Vec Ideal S256x8192 .f32) x = (V c main_arg1 : S8192x8192.Idx → EReal) k := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 256 + 1 * (x 0).val = (k 0).val; rw [e0, h0]; omega
  | ⟨1, _⟩ => show win1_0.index t 1 * 8192 + 1 * (x 1).val = (k 1).val; rw [e1, h1]; omega

/-- The feature block at every step is the whole projected feature matrix. -/
theorem feat_block (c : Dev nD) (t : Fin cfg1.N) (x : S8192x32.Idx) :
    (iblk1 V c 1 t : Vec Ideal S8192x32 .bf16) x = (V c main_v6 : S8192x32.Idx → EReal) x := by
  obtain ⟨-, -, e2, e3, -⟩ := idx_facts t
  unfold iblk1
  rw [View.read_apply]
  show V c main_v6 _ = V c main_v6 _
  congr 1
  funext a
  apply Fin.ext
  match a with
  | ⟨0, _⟩ => show win1_1.index t 0 * 8192 + 1 * (x 0).val = (x 0).val; rw [e2]; omega
  | ⟨1, _⟩ => show win1_1.index t 1 * 32 + 1 * (x 1).val = (x 1).val; rw [e3]; omega

/-- The bias block at every step is the whole bias row. -/
theorem bias_block (c : Dev nD) (t : Fin cfg1.N) (x : S1x32.Idx) :
    (iblk1 V c 2 t : Vec Ideal S1x32 .f32) x = (V c main_v1 : S1x32.Idx → EReal) x := by
  obtain ⟨-, -, -, -, e4, e5, -⟩ := idx_facts t
  unfold iblk1
  rw [View.read_apply]
  show V c main_v1 _ = V c main_v1 _
  congr 1
  funext a
  apply Fin.ext
  match a with
  | ⟨0, _⟩ => show win1_2.index t 0 * 1 + 1 * (x 0).val = (x 0).val; rw [e4]; omega
  | ⟨1, _⟩ => show win1_2.index t 1 * 32 + 1 * (x 1).val = (x 1).val; rw [e5]; omega

/-- One step's stored block, over plain arrays: if the loaded adjacency block is rows `256 tv …` of `A`, the loaded
    feature and bias blocks are `R` and `b`, and the block entry `j` sits at the array entry `i` (row `256 tv + j₀`, the same
    column), then the stored value at `j` is the layer at `i`. -/
theorem step_entry (A : S8192x8192.Idx → EReal) (R : S8192x32.Idx → EReal) (b : S1x32.Idx → EReal) (tv : Nat)
    (a : FVec Ideal S256x8192 .f32) (r : FVec Ideal S8192x32 .bf16) (bb : FVec Ideal S1x32 .f32)
    (ha : ∀ (x : S256x8192.Idx) (k : S8192x8192.Idx), (k 0).val = tv * 256 + (x 0).val → (k 1).val = (x 1).val → a x = A k)
    (hr : ∀ x : S8192x32.Idx, r x = R x) (hb : ∀ x : S1x32.Idx, bb x = b x)
    (j : S256x32.Idx) (i : S8192x32.Idx) (hi0 : (i 0).val = tv * 256 + (j 0).val) (hi1 : (i 1).val = (j 1).val) :
    k1_pay1 (F := Ideal) a r bb j = Gcn.layer A R (fun q => b (ix2 0 q)) i := by
  obtain ⟨p, q, rfl⟩ : ∃ (p : Fin 256) (q : Fin 32), j = ix2 p q := ⟨j 0, j 1, eq_ix2 j⟩
  have hq : Gcn.col i = q := Fin.ext hi1
  refine (Body.pay1_entry a r bb p q).trans ?_
  rw [Gcn.layer_apply, hq, hb]
  refine congrArg (· + b (ix2 0 q)) (Finset.sum_congr rfl fun k _ => ?_)
  rw [ha (ix2 p k) (ix2 (Gcn.row i) k) hi0 rfl, hr]

/-- WHAT STEP `t` WRITES BACK is block `t` of the layer of the arrays the launch finds. -/
theorem flushed_eq (c : Dev nD) (t : Fin cfg1.N) :
    (dat1 V c).flushed 3 t = ((cfg1.win 3).blk t).view.read (Elt Ideal)
      (Gcn.layer (V c main_arg1) (V c main_v6) (fun q => (V c main_v1 : S1x32.Idx → EReal) (ix2 0 q))) := by
  show (cfg1.win 3).cut (grid1.coords t) ((dat1 V c).after 3 t) = _
  rw [after1_3]
  unfold out1_3
  rw [View.canon_unit_zero hz]
  simp only [View.ld_unit_zero (S := S256x8192) hz, View.ld_unit_zero (S := S8192x32) hz, View.ld_unit_zero (S := S1x32) hz]
  obtain ⟨-, -, -, -, -, -, e6, e7⟩ := idx_facts t
  funext j
  exact step_entry (V c main_arg1) (V c main_v6) (V c main_v1) t.val (iblk1 V c 0 t) (iblk1 V c 1 t) (iblk1 V c 2 t)
    (fun x k h0 h1 => adj_block V c t x k h0 h1) (fun x => feat_block V c t x) (fun x => bias_block V c t x)
    j (((cfg1.win 3).blk t).view.emb j)
    (by show win1_3.index t 0 * 256 + 1 * (j 0).val = _; rw [e6]; omega)
    (by show win1_3.index t 1 * 32 + 1 * (j 1).val = _; rw [e7]; omega)

/-- An entry of the output array is in step `t`'s block iff each coordinate is in the block's range on its axis. -/
theorem mem_blk (t : Fin cfg1.N) (i : S8192x32.Idx) :
    i ∈ ((cfg1.win 3).blk t).view.set ↔ ∀ a : Fin 2, win1_3.index t a * S256x32.size a ≤ (i a).val ∧ (i a).val < win1_3.index t a * S256x32.size a + S256x32.size a := by
  show i ∈ ((View.whole main_v7).slice (win1_3.rect t)).set ↔ _
  rw [View.set_slice_whole, Rect.mem_set_unit]
  exact Iff.rfl

/-- Every entry is written back by some step: row `r` by step `r / 256`. -/
theorem cover (i : S8192x32.Idx) : ∃ t : Fin cfg1.N, (cfg1.win 3).flush t = true ∧ i ∈ ((cfg1.win 3).blk t).view.set := by
  have hN : cfg1.N = 32 := N_1
  have h0 : (i 0).val < 8192 := (i 0).isLt
  have h1 : (i 1).val < 32 := (i 1).isLt
  obtain ⟨t, ht⟩ : ∃ t : Fin cfg1.N, t.val = (i 0).val / 256 := ⟨⟨(i 0).val / 256, by rw [hN]; omega⟩, rfl⟩
  obtain ⟨-, -, -, -, -, -, e6, e7⟩ := idx_facts t
  refine ⟨t, flush1_3 t, ?_⟩
  rw [mem_blk]
  intro a
  match a with
  | ⟨0, _⟩ => show win1_3.index t 0 * 256 ≤ (i 0).val ∧ (i 0).val < win1_3.index t 0 * 256 + 256; rw [e6, ht]; omega
  | ⟨1, _⟩ => show win1_3.index t 1 * 32 ≤ (i 1).val ∧ (i 1).val < win1_3.index t 1 * 32 + 32; rw [e7]; omega

/-- THE OUTPUT ARRAY after the launch: the layer of the adjacency matrix, the projected features and the bias row as
    the launch found them. -/
theorem final (c : Dev nD) : (dat1 V c).arrAt 3 cfg1.N
    = Gcn.layer (V c main_arg1) (V c main_v6) (fun q => (V c main_v1 : S1x32.Idx → EReal) (ix2 0 q)) :=
  (dat1 V c).arrAt_eq_of_cover 3 _ (fun t _ => flushed_eq V c t) cover

end Cert.KernelIdeal.Region1

end
-- ==== Proof.Stages.lean ====
/-
  The kernel program's buffers at each boundary, read back to the launch memory.

  Before the first launch the host computes the projection `x · W₁` (rounded to bf16, which on the extended reals changes
  nothing) and reshapes the two biases to rows. The first launch leaves `h₁ = Gcn.layer adj (x · W₁) b₁` in its output
  array. The host then computes `h₁ · W₂`; the second launch leaves `h₂ = Gcn.layer adj (h₁ · W₂) b₂`; the last host
  stretch takes the column-wise maximum of `h₂` and lays it out as the result. No operation and no launch writes an
  argument array, so each is read back unchanged through every boundary.
-/
import proofs.«131351_j78503412236483_2_alg».proof.Proof.Gen.KernelIdeal.Frame
import proofs.«131351_j78503412236483_2_alg».proof.Proof.Region0
import proofs.«131351_j78503412236483_2_alg».proof.Proof.Region1
import proofs.«131351_j78503412236483_2_alg».proof.Proof.GcnSpec
import Idealize.ShloMosaic.Lib.StableHlo.Run
import Idealize.ShloMosaic.Lib.Pipeline.Value

set_option maxRecDepth 16384

noncomputable section

namespace Cert.KernelIdeal.Stages

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The projection `x · W₁` of the launch memory. -/
abbrev proj1 (c : Dev nD) : FVec Ideal S8192x32 .f32 :=
  Host.dotGeneral (F := Ideal) (φ₁ := .f32) (φ₂ := .f32) dot_S8192x128_S128x32_S8192x32_1_0_0_1_n_n none
    (m ((c : Thread nD τ).loc main_arg0)) (m ((c : Thread nD τ).loc main_arg2))

/-- A bias vector reshaped to a one-row matrix, read at (0, q), is the vector's entry q. -/
theorem row_of_vec (b : S32.Idx → EReal) (q : Fin 32) :
    shapeCast S1x32 b shapeCasts_S32_S1x32 (ix2 0 q) = b (ix1 q) :=
  shapeCast_apply b shapeCasts_S32_S1x32 (ix2 0 q) (ix1 q) (by
    rw [Shape.rowMajor_val_one, Shape.rowMajor_val_two]
    show q.val = 0 * 32 + q.val
    omega)

/-! ## At the first launch's entry -/

theorem adj_at1 (c : Dev nD) : V1 m ρ c main_arg1 = m ((c : Thread nD τ).loc main_arg1) := by
  show StableHlo.after hostOps0 (W0 m ρ c) (Proc.devRef .tc main_arg1) = _
  after_results

theorem feat_at1 (c : Dev nD) : (V1 m ρ c main_v3 : S8192x32.Idx → EReal) = proj1 m c := by
  show StableHlo.after hostOps0 (W0 m ρ c) (Proc.devRef .tc main_v3) = _
  after_results
  rfl

theorem bias_at1 (c : Dev nD) (q : Fin 32) :
    (V1 m ρ c main_v0 : S1x32.Idx → EReal) (ix2 0 q) = (m ((c : Thread nD τ).loc main_arg3) : S32.Idx → EReal) (ix1 q) := by
  have e : (V1 m ρ c main_v0 : S1x32.Idx → EReal) = shapeCast S1x32 (m ((c : Thread nD τ).loc main_arg3) : S32.Idx → EReal) shapeCasts_S32_S1x32 := by
    show StableHlo.after hostOps0 (W0 m ρ c) (Proc.devRef .tc main_v0) = _
    after_results
    rfl
  rw [e]
  exact row_of_vec _ q

/-! ## After the first launch -/

/-- The first layer's output, as a function of the launch memory. -/
abbrev h1 (c : Dev nD) : S8192x32.Idx → EReal :=
  Gcn.layer (m ((c : Thread nD τ).loc main_arg1)) (proj1 m c) (fun q => (m ((c : Thread nD τ).loc main_arg3) : S32.Idx → EReal) (ix1 q))

theorem out_at2 (c : Dev nD) : (V2 m ρ c main_v4 : S8192x32.Idx → EReal) = h1 m c := by
  refine (W2_arr m ρ c 3).trans ((Region0.final (V1 m ρ) c).trans ?_)
  rw [adj_at1, feat_at1]
  exact congrArg (Gcn.layer _ _) (funext fun q => bias_at1 m ρ c q)

theorem w2_at2 (c : Dev nD) : V2 m ρ c main_arg4 = m ((c : Thread nD τ).loc main_arg4) := by
  refine (W2_of_ne m ρ c main_arg4 (by decide)).trans ?_
  show StableHlo.after hostOps0 (W0 m ρ c) (Proc.devRef .tc main_arg4) = _
  after_results

theorem adj_at2 (c : Dev nD) : V2 m ρ c main_arg1 = m ((c : Thread nD τ).loc main_arg1) :=
  ((W2_arr m ρ c 0).trans (((dat0 (V1 m ρ) c).arrAt_in 0 rfl _).trans (A_eq0 (V1 m ρ) c 0))).trans (adj_at1 m ρ c)

theorem bias2_at2 (c : Dev nD) (q : Fin 32) :
    (V2 m ρ c main_v1 : S1x32.Idx → EReal) (ix2 0 q) = (m ((c : Thread nD τ).loc main_arg5) : S32.Idx → EReal) (ix1 q) := by
  have e : (V2 m ρ c main_v1 : S1x32.Idx → EReal) = shapeCast S1x32 (m ((c : Thread nD τ).loc main_arg5) : S32.Idx → EReal) shapeCasts_S32_S1x32 := by
    refine (W2_of_ne m ρ c main_v1 (by decide)).trans ?_
    show StableHlo.after hostOps0 (W0 m ρ c) (Proc.devRef .tc main_v1) = _
    after_results
    rfl
  rw [e]
  exact row_of_vec _ q

/-! ## At the second launch's entry -/

/-- The projection `h₁ · W₂`. -/
abbrev proj2 (c : Dev nD) : FVec Ideal S8192x32 .f32 :=
  Host.dotGeneral (F := Ideal) (φ₁ := .f32) (φ₂ := .f32) dot_S8192x32_S32x32_S8192x32_1_0_0_1_n_n none
    (h1 m c) (m ((c : Thread nD τ).loc main_arg4))

theorem adj_at3 (c : Dev nD) : V3 m ρ c main_arg1 = m ((c : Thread nD τ).loc main_arg1) := by
  have e : V3 m ρ c main_arg1 = V2 m ρ c main_arg1 := by
    show StableHlo.after hostOps1 (W2 m ρ c) (Proc.devRef .tc main_arg1) = _
    after_results
  rw [e]; exact adj_at2 m ρ c

theorem feat_at3 (c : Dev nD) : (V3 m ρ c main_v6 : S8192x32.Idx → EReal) = proj2 m c := by
  have e : (V3 m ρ c main_v6 : S8192x32.Idx → EReal)
      = Host.dotGeneral (F := Ideal) (φ₁ := .f32) (φ₂ := .f32) dot_S8192x32_S32x32_S8192x32_1_0_0_1_n_n none
          (V2 m ρ c main_v4 : S8192x32.Idx → EReal) (V2 m ρ c main_arg4) := by
    show StableHlo.after hostOps1 (W2 m ρ c) (Proc.devRef .tc main_v6) = _
    after_results
    rfl
  rw [e, out_at2, w2_at2]

theorem bias_at3 (c : Dev nD) (q : Fin 32) :
    (V3 m ρ c main_v1 : S1x32.Idx → EReal) (ix2 0 q) = (m ((c : Thread nD τ).loc main_arg5) : S32.Idx → EReal) (ix1 q) := by
  have e : V3 m ρ c main_v1 = V2 m ρ c main_v1 := by
    show StableHlo.after hostOps1 (W2 m ρ c) (Proc.devRef .tc main_v1) = _
    after_results
  rw [e]; exact bias2_at2 m ρ c q

/-! ## After the second launch, and the result -/

/-- The second layer's output, as a function of the launch memory. -/
abbrev h2 (c : Dev nD) : S8192x32.Idx → EReal :=
  Gcn.layer (m ((c : Thread nD τ).loc main_arg1)) (proj2 m c) (fun q => (m ((c : Thread nD τ).loc main_arg5) : S32.Idx → EReal) (ix1 q))

theorem out_at4 (c : Dev nD) : (W4 m ρ c (Proc.devRef .tc main_v7) : S8192x32.Idx → EReal) = h2 m c := by
  refine (W4_arr m ρ c 3).trans ((Region1.final (V3 m ρ) c).trans ?_)
  rw [adj_at3, feat_at3]
  exact congrArg (Gcn.layer _ _) (funext fun q => bias_at3 m ρ c q)

/-- THE RESULT: the readout of the second layer over the first, of the launch memory. -/
theorem result (c : Dev nD) : (W5 m ρ c (Proc.devRef .tc main_v9) : S1x1x32.Idx → EReal)
    = Gcn.readout Gen.bcast_S32_S1x1x32_2 Gen.reducesTo_S8192x32_S32_d0 Gen.h_S_ (h2 m c) := by
  have e : (W5 m ρ c (Proc.devRef .tc main_v9) : S1x1x32.Idx → EReal)
      = Gcn.readout Gen.bcast_S32_S1x1x32_2 Gen.reducesTo_S8192x32_S32_d0 Gen.h_S_
          (W4 m ρ c (Proc.devRef .tc main_v7) : S8192x32.Idx → EReal) := by
    show StableHlo.after hostOps2 (W4 m ρ c) (Proc.devRef .tc main_v9) = _
    after_results
    rfl
  rw [e, out_at4]

end Cert.KernelIdeal.Stages

end
-- ==== Proof.lean ====
/-
  A two-layer graph-convolution network with a max-pool readout: the kernel program against the plain reference.

  Both programs compute, from node features `x`, an adjacency matrix `adj`, weights `W₁`, `W₂` and biases `b₁`, `b₂`,
    `h₁ = adj · (x · W₁) + b₁`,  `h₂ = adj · (h₁ · W₂) + b₂`,  `out = max over the nodes of each column of h₂`.
  The kernel program computes each `adj · R + b` in a launch of 32 steps, one block of 256 rows per step, with `R`
  rounded to bf16 on the way in; on the extended reals that rounding is the identity and a block product into a zero
  accumulator is the plain sum of products, so each launch leaves `Gcn.layer adj R b` (Region0, Region1 over
  KernelBody). The reference's matrix product plus broadcast bias is the same function entry by entry (RefLayers). The
  two dense projections and the readout are the same host operations in both programs and are never opened. No
  algebraic law beyond reading both sides at an entry is used, so the inputs' finiteness is not needed for the values.

  The three frame claims: the two kernel programs by their generated frame proofs, the reference by its generated run.
  The idealization rewrote nothing, so the fourth claim is trivial.
-/
import proofs.«131351_j78503412236483_2_alg».proof.Defs
import proofs.«131351_j78503412236483_2_alg».proof.Proof.Gen.Kernel
import proofs.«131351_j78503412236483_2_alg».proof.Proof.Gen.Kernel.Skeleton
import proofs.«131351_j78503412236483_2_alg».proof.Proof.Gen.Kernel.Launch
import proofs.«131351_j78503412236483_2_alg».proof.Proof.Gen.Kernel.Points
import proofs.«131351_j78503412236483_2_alg».proof.Proof.Gen.Kernel.Frame
import proofs.«131351_j78503412236483_2_alg».proof.Proof.Gen.KernelIdeal
import proofs.«131351_j78503412236483_2_alg».proof.Proof.Gen.KernelIdeal.Skeleton
import proofs.«131351_j78503412236483_2_alg».proof.Proof.Gen.KernelIdeal.Launch
import proofs.«131351_j78503412236483_2_alg».proof.Proof.Gen.KernelIdeal.Points
import proofs.«131351_j78503412236483_2_alg».proof.Proof.Gen.KernelIdeal.Frame
import proofs.«131351_j78503412236483_2_alg».proof.Proof.Gen.ReferenceIdeal
import proofs.«131351_j78503412236483_2_alg».proof.Proof.Gen.Pre_finite_inputs
import proofs.«131351_j78503412236483_2_alg».proof.Proof.Gen.ReferenceIdeal.Run
import proofs.«131351_j78503412236483_2_alg».proof.Proof.Gen.ReferenceIdeal.Read
import proofs.«131351_j78503412236483_2_alg».proof.Proof.GcnSpec
import proofs.«131351_j78503412236483_2_alg».proof.Proof.RefLayers
import proofs.«131351_j78503412236483_2_alg».proof.Proof.KernelRun
import proofs.«131351_j78503412236483_2_alg».proof.Proof.Stages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the readout of the second layer over the first, of arguments that agree: the kernel
    program by its run read back through the boundaries (`Stages.result`), the reference by its run read as layers
    (`RefValue.result_eq`). -/
theorem algebraic : Cert.algebraic_KernelIdeal_ReferenceIdeal := by
  intro m ρ m' ρ' _ hagree
  refine ⟨fun c => Gcn.readout Cert.KernelIdeal.Gen.bcast_S32_S1x1x32_2 Cert.KernelIdeal.Gen.reducesTo_S8192x32_S32_d0
      Cert.KernelIdeal.Gen.h_S_ (Cert.KernelIdeal.Stages.h2 m c), ?_, ?_⟩
  · exact (θ_run Cert.KernelIdeal.defs _ _).mono
      (fun r h c => ⟨(h c).1.trans (Cert.KernelIdeal.Stages.result m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.result_eq,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
